-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x512 : Shape := ⟨2, ![16384, 512]⟩
abbrev S512x1024 : Shape := ⟨2, ![512, 1024]⟩
abbrev S512 : Shape := ⟨1, ![512]⟩
abbrev S6x512x512 : Shape := ⟨3, ![6, 512, 512]⟩
abbrev S6x512 : Shape := ⟨2, ![6, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_

variable [Facts]

def fn_part1 {F : FTy → Type} [FloatOps F] (main_arg4 : FVec F S6x512x512 .f32) (main_arg5 : FVec F S6x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S6x512x512 .f32 := Host.absf main_arg4
  let main_cst_6 : FVec F S_ .f32 := constant S_ .f32 0x7F800000#32
  let main_v20 : FVec F S6x512x512 .f32 := broadcastInDim S6x512x512 ![] bcast_S_S6x512x512 main_cst_6
  let main_v21 : IVec S6x512x512 1 := cmpf .olt main_v19 main_v20
  let main_c_7 : IVec S_ 1 := constantI S_ 1 1#1
  let main_v22 : IVec S_ 1 := (fun x v => Host.reduce IntOp.andi x v reducesTo_S6x512x512_S_d0_1_2 h_S_) main_v21 main_c_7
  let main_v23 : IVec S_ 1 := andi main_v18 main_v22
  let main_v24 : FVec F S6x512 .f32 := Host.absf main_arg5
  let main_cst_8 : FVec F S_ .f32 := constant S_ .f32 0x7F800000#32
  let main_v25 : FVec F S6x512 .f32 := broadcastInDim S6x512 ![] bcast_S_S6x512 main_cst_8
  let main_v26 : IVec S6x512 1 := cmpf .olt main_v24 main_v25
  let main_c_9 : IVec S_ 1 := constantI S_ 1 1#1
  let main_v27 : IVec S_ 1 := (fun x v => Host.reduce IntOp.andi x v reducesTo_S6x512_S_d0_1 h_S_) main_v26 main_c_9
  let main_v28 : IVec S_ 1 := andi main_v23 main_v27
  main_v28

def fn {F : FTy → Type} [FloatOps F] (main_arg0 : FVec F S16384x1024 .f32) (main_arg1 : FVec F S16384x512 .f32) (main_arg2 : FVec F S512x1024 .f32) (main_arg3 : FVec F S512 .f32) (main_arg4 : FVec F S6x512x512 .f32) (main_arg5 : FVec F S6x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x1024 : Shape := ⟨2, ![16384, 1024]⟩
abbrev S16384x512 : Shape := ⟨2, ![16384, 512]⟩
abbrev S512x1024 : Shape := ⟨2, ![512, 1024]⟩
abbrev S512 : Shape := ⟨1, ![512]⟩
abbrev S6x512x512 : Shape := ⟨3, ![6, 512, 512]⟩
abbrev S6x512 : Shape := ⟨2, ![6, 512]⟩
abbrev S1024x512 : Shape := ⟨2, ![1024, 512]⟩
abbrev S1x512 : Shape := ⟨2, ![1, 512]⟩
abbrev S6x1x512 : Shape := ⟨3, ![6, 1, 512]⟩
abbrev S1024x1024 : Shape := ⟨2, ![1024, 1024]⟩
abbrev S1024 : Shape := ⟨1, ![1024]⟩
abbrev S1024x1 : Shape := ⟨2, ![1024, 1]⟩
abbrev S1x512x512 : Shape := ⟨3, ![1, 512, 512]⟩
abbrev S512x512 : Shape := ⟨2, ![512, 512]⟩
abbrev S1x1x512 : Shape := ⟨3, ![1, 1, 512]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S512x1024, .f32⟩
  | .hbm, ⟨3, _⟩ => ⟨S512, .f32⟩
  | .hbm, ⟨4, _⟩ => ⟨S6x512x512, .f32⟩
  | .hbm, ⟨5, _⟩ => ⟨S6x512, .f32⟩
  | .hbm, ⟨6, _⟩ => ⟨S1024x512, .f32⟩
  | .hbm, ⟨7, _⟩ => ⟨S1024x512, .bf16⟩
  | .hbm, ⟨8, _⟩ => ⟨S6x512x512, .f32⟩
  | .hbm, ⟨9, _⟩ => ⟨S6x512x512, .bf16⟩
  | .hbm, ⟨10, _⟩ => ⟨S1x512, .f32⟩
  | .hbm, ⟨11, _⟩ => ⟨S6x1x512, .f32⟩
  | .hbm, ⟨12, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1x512, .f32⟩
  | .local _ .vmem, ⟨6, _⟩ => ⟨S6x512x512, .bf16⟩
  | .local _ .vmem, ⟨7, _⟩ => ⟨S6x1x512, .f32⟩
  | .local _ .vmem, ⟨8, _⟩ => ⟨S1024x512, .f32⟩
  | .local _ .vmem, ⟨9, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x1024_S1024x512_1_0 : S512x1024.Transposes [1, 0] S1024x512
  bitsLt_bf16_f32 : FTy.bits .bf16 < FTy.bits .f32
  transposes_S6x512x512_S6x512x512_0_2_1 : S6x512x512.Transposes [0, 2, 1] S6x512x512
  shapeCasts_S512_S1x512 : S512.ShapeCasts S1x512
  shapeCasts_S6x512_S6x1x512 : S6x512.ShapeCasts S6x1x512
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S6x512x512_S1x512x512_0_0_0 : ∀ a, (![0, 0, 0] : Fin 3 → Nat) a + S1x512x512.size a ≤ S6x512x512.size a
  h_S1x512x512 : 0 < S1x512x512.numel
  shapeCasts_S1x512x512_S512x512 : S1x512x512.ShapeCasts S512x512
  inb_S6x1x512_S1x1x512_0_0_0 : ∀ a, (![0, 0, 0] : Fin 3 → Nat) a + S1x1x512.size a ≤ S6x1x512.size a
  h_S1x1x512 : 0 < S1x1x512.numel
  shapeCasts_S1x1x512_S1x512 : S1x1x512.ShapeCasts S1x512
  inb_S6x512x512_S1x512x512_1_0_0 : ∀ a, (![1, 0, 0] : Fin 3 → Nat) a + S1x512x512.size a ≤ S6x512x512.size a
  inb_S6x1x512_S1x1x512_1_0_0 : ∀ a, (![1, 0, 0] : Fin 3 → Nat) a + S1x1x512.size a ≤ S6x1x512.size a
  inb_S6x512x512_S1x512x512_2_0_0 : ∀ a, (![2, 0, 0] : Fin 3 → Nat) a + S1x512x512.size a ≤ S6x512x512.size a
  inb_S6x1x512_S1x1x512_2_0_0 : ∀ a, (![2, 0, 0] : Fin 3 → Nat) a + S1x1x512.size a ≤ S6x1x512.size a
  inb_S6x512x512_S1x512x512_3_0_0 : ∀ a, (![3, 0, 0] : Fin 3 → Nat) a + S1x512x512.size a ≤ S6x512x512.size a
  inb_S6x1x512_S1x1x512_3_0_0 : ∀ a, (![3, 0, 0] : Fin 3 → Nat) a + S1x1x512.size a ≤ S6x1x512.size a
  inb_S6x512x512_S1x512x512_4_0_0 : ∀ a, (![4, 0, 0] : Fin 3 → Nat) a + S1x512x512.size a ≤ S6x512x512.size a
  inb_S6x1x512_S1x1x512_4_0_0 : ∀ a, (![4, 0, 0] : Fin 3 → Nat) a + S1x1x512.size a ≤ S6x1x512.size a
  inb_S6x512x512_S1x512x512_5_0_0 : ∀ a, (![5, 0, 0] : Fin 3 → Nat) a + S1x512x512.size a ≤ S6x512x512.size a
  inb_S6x1x512_S1x1x512_5_0_0 : ∀ a, (![5, 0, 0] : Fin 3 → Nat) a + S1x1x512.size a ≤ S6x1x512.size a
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x512x512.size a ≤ S6x512x512.size a
  hwx0_4 : ∀ i : grid0.Coords, EltTy.bits .bf16 = 32 ∨ (Rect.block (s := S6x512x512) S6x512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1x512.size a ≤ S6x1x512.size a
  hwx0_5 : ∀ i : grid0.Coords, EltTy.bits .f32 = 32 ∨ (Rect.block (s := S6x1x512) S6x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S6x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S6x1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x512 : Shape := ⟨2, ![16384, 512]⟩
abbrev S512x1024 : Shape := ⟨2, ![512, 1024]⟩
abbrev S512 : Shape := ⟨1, ![512]⟩
abbrev S6x512x512 : Shape := ⟨3, ![6, 512, 512]⟩
abbrev S6x512 : Shape := ⟨2, ![6, 512]⟩
abbrev S1024x512 : Shape := ⟨2, ![1024, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x512x512 : Shape := ⟨3, ![1, 512, 512]⟩
abbrev S512x512 : Shape := ⟨2, ![512, 512]⟩

abbrev nBuf : Space → Nat
  | .hbm => 170
  | .vmem => 0
  | .smem => 0
  | _ => 0

abbrev hbmTy0_0 (i : Nat) : BufTy := match i % 128 with
  | 0 => ⟨S16384x1024, .f32⟩
  | 1 => ⟨S16384x512, .f32⟩
  | 2 => ⟨S512x1024, .f32⟩
  | 3 => ⟨S512, .f32⟩
  | 4 => ⟨S6x512x512, .f32⟩
  | 5 => ⟨S6x512, .f32⟩
  | 6 => ⟨S1024x512, .f32⟩
  | 7 => ⟨S16384x512, .f32⟩
  | 8 => ⟨S1x512, .f32⟩
  | 9 => ⟨S16384x512, .f32⟩
  | 10 => ⟨S16384x512, .f32⟩
  | 11 => ⟨S16384x512, .f32⟩
  | 12 => ⟨S_, .f32⟩
  | 13 => ⟨S16384, .f32⟩
  | 14 => ⟨S16384x1, .f32⟩
  | 15 => ⟨S16384x512, .f32⟩
  | 16 => ⟨S_, .f32⟩
  | 17 => ⟨S16384, .f32⟩
  | 18 => ⟨S16384x1, .f32⟩
  | 19 => ⟨S_, .f32⟩
  | 20 => ⟨S16384x512, .f32⟩
  | 21 => ⟨S16384x512, .f32⟩
  | 22 => ⟨S16384x1, .f32⟩
  | 23 => ⟨S16384x512, .f32⟩
  | 24 => ⟨S16384x512, .f32⟩
  | 25 => ⟨S16384x512, .f32⟩
  | 26 => ⟨S1x512x512, .f32⟩
  | 27 => ⟨S512x512, .f32⟩
  | 28 => ⟨S512x512, .f32⟩
  | 29 => ⟨S16384x512, .f32⟩
  | 30 => ⟨S1x512, .f32⟩
  | 31 => ⟨S512, .f32⟩
  | 32 => ⟨S1x512, .f32⟩
  | 33 => ⟨S16384x512, .f32⟩
  | 34 => ⟨S16384x512, .f32⟩
  | 35 => ⟨S16384x512, .f32⟩
  | 36 => ⟨S_, .f32⟩
  | 37 => ⟨S16384, .f32⟩
  | 38 => ⟨S16384x1, .f32⟩
  | 39 => ⟨S16384x512, .f32⟩
  | 40 => ⟨S_, .f32⟩
  | 41 => ⟨S16384, .f32⟩
  | 42 => ⟨S16384x1, .f32⟩
  | 43 => ⟨S_, .f32⟩
  | 44 => ⟨S16384x512, .f32⟩
  | 45 => ⟨S16384x512, .f32⟩
  | 46 => ⟨S16384x1, .f32⟩
  | 47 => ⟨S16384x512, .f32⟩
  | 48 => ⟨S16384x512, .f32⟩
  | 49 => ⟨S16384x512, .f32⟩
  | 50 => ⟨S1x512x512, .f32⟩
  | 51 => ⟨S512x512, .f32⟩
  | 52 => ⟨S512x512, .f32⟩
  | 53 => ⟨S16384x512, .f32⟩
  | 54 => ⟨S1x512, .f32⟩
  | 55 => ⟨S512, .f32⟩
  | 56 => ⟨S1x512, .f32⟩
  | 57 => ⟨S16384x512, .f32⟩
  | 58 => ⟨S16384x512, .f32⟩
  | 59 => ⟨S16384x512, .f32⟩
  | 60 => ⟨S_, .f32⟩
  | 61 => ⟨S16384, .f32⟩
  | 62 => ⟨S16384x1, .f32⟩
  | 63 => ⟨S16384x512, .f32⟩
  | 64 => ⟨S_, .f32⟩
  | 65 => ⟨S16384, .f32⟩
  | 66 => ⟨S16384x1, .f32⟩
  | 67 => ⟨S_, .f32⟩
  | 68 => ⟨S16384x512, .f32⟩
  | 69 => ⟨S16384x512, .f32⟩
  | 70 => ⟨S16384x1, .f32⟩
  | 71 => ⟨S16384x512, .f32⟩
  | 72 => ⟨S16384x512, .f32⟩
  | 73 => ⟨S16384x512, .f32⟩
  | 74 => ⟨S1x512x512, .f32⟩
  | 75 => ⟨S512x512, .f32⟩
  | 76 => ⟨S512x512, .f32⟩
  | 77 => ⟨S16384x512, .f32⟩
  | 78 => ⟨S1x512, .f32⟩
  | 79 => ⟨S512, .f32⟩
  | 80 => ⟨S1x512, .f32⟩
  | 81 => ⟨S16384x512, .f32⟩
  | 82 => ⟨S16384x512, .f32⟩
  | 83 => ⟨S16384x512, .f32⟩
  | 84 => ⟨S_, .f32⟩
  | 85 => ⟨S16384, .f32⟩
  | 86 => ⟨S16384x1, .f32⟩
  | 87 => ⟨S16384x512, .f32⟩
  | 88 => ⟨S_, .f32⟩
  | 89 => ⟨S16384, .f32⟩
  | 90 => ⟨S16384x1, .f32⟩
  | 91 => ⟨S_, .f32⟩
  | 92 => ⟨S16384x512, .f32⟩
  | 93 => ⟨S16384x512, .f32⟩
  | 94 => ⟨S16384x1, .f32⟩
  | 95 => ⟨S16384x512, .f32⟩
  | 96 => ⟨S16384x512, .f32⟩
  | 97 => ⟨S16384x512, .f32⟩
  | 98 => ⟨S1x512x512, .f32⟩
  | 99 => ⟨S512x512, .f32⟩
  | 100 => ⟨S512x512, .f32⟩
  | 101 => ⟨S16384x512, .f32⟩
  | 102 => ⟨S1x512, .f32⟩
  | 103 => ⟨S512, .f32⟩
  | 104 => ⟨S1x512, .f32⟩
  | 105 => ⟨S16384x512, .f32⟩
  | 106 => ⟨S16384x512, .f32⟩
  | 107 => ⟨S16384x512, .f32⟩
  | 108 => ⟨S_, .f32⟩
  | 109 => ⟨S16384, .f32⟩
  | 110 => ⟨S16384x1, .f32⟩
  | 111 => ⟨S16384x512, .f32⟩
  | 112 => ⟨S_, .f32⟩
  | 113 => ⟨S16384, .f32⟩
  | 114 => ⟨S16384x1, .f32⟩
  | 115 => ⟨S_, .f32⟩
  | 116 => ⟨S16384x512, .f32⟩
  | 117 => ⟨S16384x512, .f32⟩
  | 118 => ⟨S16384x1, .f32⟩
  | 119 => ⟨S16384x512, .f32⟩
  | 120 => ⟨S16384x512, .f32⟩
  | 121 => ⟨S16384x512, .f32⟩
  | 122 => ⟨S1x512x512, .f32⟩
  | 123 => ⟨S512x512, .f32⟩
  | 124 => ⟨S512x512, .f32⟩
  | 125 => ⟨S16384x512, .f32⟩
  | 126 => ⟨S1x512, .f32⟩
  | 127 => ⟨S512, .f32⟩
  | _ => ⟨S16384x1024, .f32⟩

abbrev hbmTy0_1 (i : Nat) : BufTy := match i % 128 with
  | 0 => ⟨S1x512, .f32⟩
  | 1 => ⟨S16384x512, .f32⟩
  | 2 => ⟨S16384x512, .f32⟩
  | 3 => ⟨S16384x512, .f32⟩
  | 4 => ⟨S_, .f32⟩
  | 5 => ⟨S16384, .f32⟩
  | 6 => ⟨S16384x1, .f32⟩
  | 7 => ⟨S16384x512, .f32⟩
  | 8 => ⟨S_, .f32⟩
  | 9 => ⟨S16384, .f32⟩
  | 10 => ⟨S16384x1, .f32⟩
  | 11 => ⟨S_, .f32⟩
  | 12 => ⟨S16384x512, .f32⟩
  | 13 => ⟨S16384x512, .f32⟩
  | 14 => ⟨S16384x1, .f32⟩
  | 15 => ⟨S16384x512, .f32⟩
  | 16 => ⟨S16384x512, .f32⟩
  | 17 => ⟨S16384x512, .f32⟩
  | 18 => ⟨S1x512x512, .f32⟩
  | 19 => ⟨S512x512, .f32⟩
  | 20 => ⟨S512x512, .f32⟩
  | 21 => ⟨S16384x512, .f32⟩
  | 22 => ⟨S1x512, .f32⟩
  | 23 => ⟨S512, .f32⟩
  | 24 => ⟨S1x512, .f32⟩
  | 25 => ⟨S16384x512, .f32⟩
  | 26 => ⟨S16384x512, .f32⟩
  | 27 => ⟨S16384x512, .f32⟩
  | 28 => ⟨S_, .f32⟩
  | 29 => ⟨S16384, .f32⟩
  | 30 => ⟨S16384x1, .f32⟩
  | 31 => ⟨S16384x512, .f32⟩
  | 32 => ⟨S_, .f32⟩
  | 33 => ⟨S16384, .f32⟩
  | 34 => ⟨S16384x1, .f32⟩
  | 35 => ⟨S_, .f32⟩
  | 36 => ⟨S16384x512, .f32⟩
  | 37 => ⟨S16384x512, .f32⟩
  | 38 => ⟨S16384x1, .f32⟩
  | 39 => ⟨S16384x512, .f32⟩
  | 40 => ⟨S16384x512, .f32⟩
  | 41 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_12 : Ref sig .tc := ⟨.hbm, 112, rfl⟩
abbrev main_v93 : Ref sig .tc := ⟨.hbm, 113, rfl⟩
abbrev main_v94 : Ref sig .tc := ⟨.hbm, 114, rfl⟩
abbrev main_cst_13 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_14 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_cst_16 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_cst_17 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_18 : Ref sig .tc := ⟨.hbm, 160, rfl⟩
abbrev main_v135 : Ref sig .tc := ⟨.hbm, 161, rfl⟩
abbrev main_v136 : Ref sig .tc := ⟨.hbm, 162, rfl⟩
abbrev main_cst_19 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  slices_S6x512x512_S1x512x512_0_0_0 : S6x512x512.Slices ![0, 0, 0] S1x512x512
  shapeCasts_S1x512x512_S512x512 : S1x512x512.ShapeCasts S512x512
  transposes_S512x512_S512x512_1_0 : S512x512.Transposes [1, 0] S512x512
  slices_S6x512_S1x512_0_0 : S6x512.Slices ![0, 0] S1x512
  shapeCasts_S1x512_S512 : S1x512.ShapeCasts S512
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.HouseholderFlow.lean ====
/-
  The Householder flow on one row, over the extended reals.

  A row of the batch carries a pair (v, z). The first layer sends the hidden row h to v₀ = W₀·h + b₀; each later
  layer sends v to W·v + b; and after every layer z is reflected in the hyperplane orthogonal to the new v:
      z ↦ z − v · (2·⟨v,z⟩ / ⟨v,v⟩).
  Seven layers, seven reflections; the result is the last z. Nothing here needs a finite entry: the only law used
  between the two arrangements of a reflection, v·((2·s)/n) = (2·v)·(s/n), holds for all extended reals.
-/
import Idealize.ShloMosaic.PureOps.Ideal
import Idealize.ShloMosaic.PureOps.Ideal.Laws
import Idealize.ShloMosaic.Lib.ValueIdx

noncomputable section

namespace Cert.Householder

open Idealize.ShloMosaic Idealize.ShloMosaic.ValueIdx

/-- The float word of 2.0 denotes the real number 2. -/
theorem ofBits_two : Ideal.ofBits .f32 0x40000000#32 = ((2 : ℝ) : EReal) := by
  simp [Ideal.ofBits, Ideal.ieee, -EReal.coe_mul]; norm_num

/-- Doubling does not change the sign of an extended real. -/
theorem two_mul_pos_iff (s : EReal) : 0 < ((2 : ℝ) : EReal) * s ↔ 0 < s := by
  induction s using EReal.rec with
  | bot => rw [EReal.coe_mul_bot_of_pos (by norm_num : (0 : ℝ) < 2)]
  | coe r =>
    rw [← EReal.coe_mul, EReal.coe_pos, EReal.coe_pos]
    constructor <;> intro h <;> linarith
  | top => rw [EReal.coe_mul_top_of_pos (by norm_num : (0 : ℝ) < 2)]

/-- Doubling fixes the two infinities and zero. -/
theorem two_mul_fixed {x : EReal} (h : x = ⊤ ∨ x = ⊥ ∨ x = 0) : ((2 : ℝ) : EReal) * x = x := by
  rcases h with h | h | h
  · rw [h, EReal.coe_mul_top_of_pos (by norm_num : (0 : ℝ) < 2)]
  · rw [h, EReal.coe_mul_bot_of_pos (by norm_num : (0 : ℝ) < 2)]
  · rw [h, mul_zero]

/-- A product with +∞ is +∞, −∞ or 0. -/
theorem mul_top_cases (v : EReal) : v * ⊤ = ⊤ ∨ v * ⊤ = ⊥ ∨ v * ⊤ = 0 := by
  rcases lt_trichotomy 0 v with h | h | h
  · exact Or.inl (EReal.mul_top_of_pos h)
  · exact Or.inr (Or.inr (by rw [← h, zero_mul]))
  · exact Or.inr (Or.inl (EReal.mul_top_of_neg h))

/-- A product with −∞ is +∞, −∞ or 0. -/
theorem mul_bot_cases (v : EReal) : v * ⊥ = ⊤ ∨ v * ⊥ = ⊥ ∨ v * ⊥ = 0 := by
  rcases lt_trichotomy 0 v with h | h | h
  · exact Or.inr (Or.inl (EReal.mul_bot_of_pos h))
  · exact Or.inr (Or.inr (by rw [← h, zero_mul]))
  · exact Or.inl (EReal.mul_bot_of_neg h)

/-- The two arrangements of a reflection's coefficient agree on all extended reals: off a zero norm both are the
    product 2·v·s·n⁻¹; at a zero norm the quotient is an infinity of the sign of s (the same sign as 2·s), and
    v times an infinity is an infinity or zero, which doubling fixes. -/
theorem scale_comm (v s n : EReal) :
    ((2 : ℝ) : EReal) * v * Ideal.div s n = v * Ideal.div (((2 : ℝ) : EReal) * s) n := by
  unfold Ideal.div
  by_cases hn : n = 0
  · rw [if_pos hn, if_pos hn]
    simp only [two_mul_pos_iff]
    rw [mul_assoc]
    by_cases hs : 0 < s
    · rw [if_pos hs]; exact two_mul_fixed (mul_top_cases v)
    · rw [if_neg hs]; exact two_mul_fixed (mul_bot_cases v)
  · rw [if_neg hn, if_neg hn]
    ac_rfl

/-- One linear layer on a row: entry c is Σₖ x k · w c k + b c. -/
def lin {K : ℕ} (w : Fin 512 → Fin K → EReal) (b : Fin 512 → EReal) (x : Fin K → EReal) : Fin 512 → EReal :=
  fun c => (∑ k : Fin K, x k * w c k) + b c

/-- The reflection of the row z by the row v: z − v · ((2·⟨v,z⟩) / ⟨v,v⟩). -/
def householder (v z : Fin 512 → EReal) : Fin 512 → EReal :=
  fun c => z c - v c * Ideal.div (Ideal.ofBits .f32 0x40000000#32 * ∑ k : Fin 512, v k * z k) (∑ k : Fin 512, v k * v k)

/-- The same reflection with the factor 2 taken onto v: z − (2·v) · (⟨v,z⟩ / ⟨v,v⟩). -/
theorem householder_eq (v z : Fin 512 → EReal) (c : Fin 512) :
    z c - Ideal.ofBits .f32 0x40000000#32 * v c * Ideal.div (∑ k : Fin 512, v k * z k) (∑ k : Fin 512, v k * v k)
      = householder v z c := by
  unfold householder
  rw [ofBits_two, scale_comm]

/-- The whole flow on one row: the first layer from the hidden row, six more layers, a reflection of z after each. -/
def flow (w0 : Fin 512 → Fin 1024 → EReal) (b0 : Fin 512 → EReal) (ws : Fin 6 → Fin 512 → Fin 512 → EReal)
    (bs : Fin 6 → Fin 512 → EReal) (h : Fin 1024 → EReal) (z : Fin 512 → EReal) : Fin 512 → EReal :=
  let v0 := lin w0 b0 h
  let z1 := householder v0 z
  let v1 := lin (ws 0) (bs 0) v0
  let z2 := householder v1 z1
  let v2 := lin (ws 1) (bs 1) v1
  let z3 := householder v2 z2
  let v3 := lin (ws 2) (bs 2) v2
  let z4 := householder v3 z3
  let v4 := lin (ws 3) (bs 3) v3
  let z5 := householder v4 z4
  let v5 := lin (ws 4) (bs 4) v4
  let z6 := householder v5 z5
  let v6 := lin (ws 5) (bs 5) v5
  householder v6 z6

/-- The result array of both programs: entry (r, q) is the flow of row r of the hidden array and of zs, through the
    weights W₀, b₀ and the six stacked Ws[t], bs[t], read at q. -/
def flowArray (hidden : (⟨2, ![16384, 1024]⟩ : Shape).Idx → EReal) (zs : (⟨2, ![16384, 512]⟩ : Shape).Idx → EReal)
    (W0 : (⟨2, ![512, 1024]⟩ : Shape).Idx → EReal) (b0 : (⟨1, ![512]⟩ : Shape).Idx → EReal)
    (Ws : (⟨3, ![6, 512, 512]⟩ : Shape).Idx → EReal) (bs : (⟨2, ![6, 512]⟩ : Shape).Idx → EReal) :
    (⟨2, ![16384, 512]⟩ : Shape).Idx → EReal :=
  fun i => flow (fun c k => W0 (ix2 c k)) (fun c => b0 (ix1 c)) (fun t c k => Ws (ix3 t c k)) (fun t c => bs (ix2 t c))
    (fun k => hidden (ix2 (i 0) k)) (fun k => zs (ix2 (i 0) k)) (i 1)

/-- The result array at entry (r, q). -/
theorem flowArray_apply (hidden : (⟨2, ![16384, 1024]⟩ : Shape).Idx → EReal) (zs : (⟨2, ![16384, 512]⟩ : Shape).Idx → EReal)
    (W0 : (⟨2, ![512, 1024]⟩ : Shape).Idx → EReal) (b0 : (⟨1, ![512]⟩ : Shape).Idx → EReal)
    (Ws : (⟨3, ![6, 512, 512]⟩ : Shape).Idx → EReal) (bs : (⟨2, ![6, 512]⟩ : Shape).Idx → EReal) (r : Fin 16384) (q : Fin 512) :
    flowArray hidden zs W0 b0 Ws bs (ix2 r q)
      = flow (fun c k => W0 (ix2 c k)) (fun c => b0 (ix1 c)) (fun t c k => Ws (ix3 t c k)) (fun t c => bs (ix2 t c))
          (fun k => hidden (ix2 r k)) (fun k => zs (ix2 r k)) q := rfl

end Cert.Householder

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KernelRows.lean ====
/-
  The kernel body's values on one block of 1024 rows, read at an entry.

  Every value of the body is row-local: entry (p, q) of a layer's output depends only on row p of its input, and
  entry (p, q) of a reflected z only on rows p of v and z. So each payload, read at (p, q), is the row function of
  HouseholderFlow.lean applied to row p of its operands: a bf16 matrix product into a zero accumulator plus a
  broadcast bias is `lin`; two lane sums, a quotient and a broadcast along the row are `householder`.
-/
import proofs.«169013_j80315888436082_2_alg».proof.Proof.Gen.KernelIdeal.Skeleton
import proofs.«169013_j80315888436082_2_alg».proof.Proof.HouseholderFlow
import proofs.«169013_j80315888436082_2_alg».proof.Proof.LibPlainDot
import proofs.«169013_j80315888436082_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Householder

/-- Row p of a block with 1024 rows. -/
def row {K : ℕ} (v : (⟨2, ![1024, K]⟩ : Shape).Idx → EReal) (p : Fin 1024) : Fin K → EReal := fun k => v (ix2 p k)

/-- The weights of a loaded [1, 512, 512] slab as (output channel, input channel): the slab is stored input-major. -/
def slabW (W : (⟨3, ![1, 512, 512]⟩ : Shape).Idx → EReal) : Fin 512 → Fin 512 → EReal := fun c k => W (ix3 (0 : Fin 1) k c)

/-- The bias of a loaded [1, 1, 512] slab. -/
def slabB (b : (⟨3, ![1, 1, 512]⟩ : Shape).Idx → EReal) : Fin 512 → EReal := fun c => b (ix3 (0 : Fin 1) (0 : Fin 1) c)

/-- A lane sum over the 512 columns kept as a [1024, 1] column: entry (p, ·) is the sum of row p. -/
theorem lane_sum_apply (a : FVec Ideal S1024x512 .f32) (hφ : FKind.Formats .f32)
    (hacc : (0x00000000#32 : BitVec (FTy.bits .f32)) = FKind.add.neutral .f32 hφ) (p : Fin 1024) (u : Fin 1) :
    shapeCast S1024x1 (multiReduction .add [1] S1024 a 0x00000000#32 reduces_S1024x512_S1024 hφ hacc) shapeCasts_S1024_S1024x1 (ix2 p u)
      = ∑ k : Fin 512, a (ix2 p k) := by
  refine (shapeCast_a_a1_apply _ _ p u).trans ?_
  refine (Ideal.multiReduction_add_single a _ reduces_S1024x512_S1024 hφ hacc (ix1 p)).trans ?_
  refine Finset.sum_congr rfl fun k _ => congrArg a ?_
  funext d
  match d with
  | ⟨0, _⟩ => rfl
  | ⟨1, _⟩ => rfl

/-- The first layer on a block: entry (p, q) is the layer of row p of the hidden block. -/
theorem first_layer_apply (x0 : FVec Ideal S1024x1024 .f32) (w : FVec Ideal S1024x512 .bf16) (b : FVec Ideal S1x512 .f32)
    (p : Fin 1024) (q : Fin 512) :
    k0_pay2 (F := Ideal) x0 w b (ix2 p q)
      = lin (fun c k => w (ix2 k c)) (fun c => b (ix2 (0 : Fin 1) c)) (row x0 p) q := by
  unfold k0_pay2 lin row
  refine congrArg₂ (· + ·) ?_ ?_
  · refine (Cert.LibPlainDot.matmul_plain_zero_apply 1024 1024 512 none _ _ p q).trans ?_
    refine Finset.sum_congr rfl fun c _ => ?_
    rw [shapeCast_self]; rfl
  · refine (broadcastTo_1b_ab_apply _ _ p q).trans ?_
    rw [shapeCast_self]

/-- A later layer on a block: entry (p, q) is the layer of row p of the incoming v, with the loaded slab's weights. -/
theorem layer_apply (v : FVec Ideal S1024x512 .f32) (W : FVec Ideal S1x512x512 .bf16) (b : FVec Ideal S1x1x512 .f32)
    (p : Fin 1024) (q : Fin 512) :
    k0_pay8 (F := Ideal) v W b (ix2 p q) = lin (slabW W) (slabB b) (row v p) q := by
  unfold k0_pay8 lin row slabW slabB
  refine congrArg₂ (· + ·) ?_ ?_
  · refine (Cert.LibPlainDot.matmul_plain_zero_apply 1024 512 512 none _ _ p q).trans ?_
    refine Finset.sum_congr rfl fun c _ => ?_
    rw [shapeCast_1ab_ab_apply]; rfl
  · refine (broadcastTo_1b_ab_apply _ _ p q).trans ?_
    rw [shapeCast_1ab_ab_apply]

/-- The column of row inner products ⟨a, b⟩, kept as [1024, 1]. -/
abbrev dotCol (a b : FVec Ideal S1024x512 .f32) : FVec Ideal S1024x1 .f32 :=
  shapeCast S1024x1 (multiReduction .add [1] S1024 (mulf a b) 0x00000000#32 reduces_S1024x512_S1024 (.inl rfl) rfl) shapeCasts_S1024_S1024x1

/-- The column of the constant 2. -/
abbrev twoCol : FVec Ideal S1024x1 .f32 := broadcast S1024x1 (Scalar.ofBits .f32 0x40000000#32)

/-- A reflection finished from its two columns: z − v · ((2·vz) / v2), the quotient broadcast along each row. -/
abbrev finish (z v : FVec Ideal S1024x512 .f32) (vz v2 two : FVec Ideal S1024x1 .f32) : FVec Ideal S1024x512 .f32 :=
  subf z (mulf v (broadcastTo S1024x512 (divf (mulf two vz) v2) broadcasts_S1024x1_S1024x512))

/-- The reflection of the block z by the block v, row by row. -/
def reflectBlock (v z : FVec Ideal S1024x512 .f32) : FVec Ideal S1024x512 .f32 :=
  finish z v (dotCol v z) (dotCol v v) twoCol

/-- Entry (p, q) of a reflected block is the reflection of row p of z by row p of v. -/
theorem reflectBlock_apply (v z : FVec Ideal S1024x512 .f32) (p : Fin 1024) (q : Fin 512) :
    reflectBlock v z (ix2 p q) = householder (row v p) (row z p) q := by
  have h1 : dotCol v z (ix2 p (0 : Fin 1)) = ∑ k : Fin 512, v (ix2 p k) * z (ix2 p k) :=
    lane_sum_apply (mulf v z) _ _ p 0
  have h2 : dotCol v v (ix2 p (0 : Fin 1)) = ∑ k : Fin 512, v (ix2 p k) * v (ix2 p k) :=
    lane_sum_apply (mulf v v) _ _ p 0
  unfold reflectBlock householder row
  show z (ix2 p q) - v (ix2 p q) * broadcastTo S1024x512 (divf (mulf twoCol (dotCol v z)) (dotCol v v)) broadcasts_S1024x1_S1024x512 (ix2 p q) = _
  rw [broadcastTo_a1_ab_apply]
  show z (ix2 p q) - v (ix2 p q) * Ideal.div (Ideal.ofBits .f32 0x40000000#32 * dotCol v z (ix2 p (0 : Fin 1))) (dotCol v v (ix2 p (0 : Fin 1))) = _
  rw [h1, h2]

/-- Row p of the first layer's output. -/
theorem row_first_layer (x0 : FVec Ideal S1024x1024 .f32) (w : FVec Ideal S1024x512 .bf16) (b : FVec Ideal S1x512 .f32) (p : Fin 1024) :
    row (k0_pay2 (F := Ideal) x0 w b) p = lin (fun c k => w (ix2 k c)) (fun c => b (ix2 (0 : Fin 1) c)) (row x0 p) :=
  funext fun q => first_layer_apply x0 w b p q

/-- Row p of a later layer's output. -/
theorem row_layer (v : FVec Ideal S1024x512 .f32) (W : FVec Ideal S1x512x512 .bf16) (b : FVec Ideal S1x1x512 .f32) (p : Fin 1024) :
    row (k0_pay8 (F := Ideal) v W b) p = lin (slabW W) (slabB b) (row v p) :=
  funext fun q => layer_apply v W b p q

/-- Row p of a reflected block. -/
theorem row_reflectBlock (v z : FVec Ideal S1024x512 .f32) (p : Fin 1024) :
    row (reflectBlock v z) p = householder (row v p) (row z p) :=
  funext fun q => reflectBlock_apply v z p q

/-- The whole body on a block, from the loaded hidden and z blocks, the first layer's weights and bias, and the six
    loaded slabs: seven layers, a reflection after each. -/
def blockFlow (x0 : FVec Ideal S1024x1024 .f32) (x1 : FVec Ideal S1024x512 .f32) (w : FVec Ideal S1024x512 .bf16) (b : FVec Ideal S1x512 .f32)
    (W0 : FVec Ideal S1x512x512 .bf16) (c0 : FVec Ideal S1x1x512 .f32) (W1 : FVec Ideal S1x512x512 .bf16) (c1 : FVec Ideal S1x1x512 .f32)
    (W2 : FVec Ideal S1x512x512 .bf16) (c2 : FVec Ideal S1x1x512 .f32) (W3 : FVec Ideal S1x512x512 .bf16) (c3 : FVec Ideal S1x1x512 .f32)
    (W4 : FVec Ideal S1x512x512 .bf16) (c4 : FVec Ideal S1x1x512 .f32) (W5 : FVec Ideal S1x512x512 .bf16) (c5 : FVec Ideal S1x1x512 .f32) :
    FVec Ideal S1024x512 .f32 :=
  let v0 := k0_pay2 (F := Ideal) x0 w b
  let z1 := reflectBlock v0 x1
  let v1 := k0_pay8 (F := Ideal) v0 W0 c0
  let z2 := reflectBlock v1 z1
  let v2 := k0_pay8 (F := Ideal) v1 W1 c1
  let z3 := reflectBlock v2 z2
  let v3 := k0_pay8 (F := Ideal) v2 W2 c2
  let z4 := reflectBlock v3 z3
  let v4 := k0_pay8 (F := Ideal) v3 W3 c3
  let z5 := reflectBlock v4 z4
  let v5 := k0_pay8 (F := Ideal) v4 W4 c4
  let z6 := reflectBlock v5 z5
  let v6 := k0_pay8 (F := Ideal) v5 W5 c5
  reflectBlock v6 z6

/-- Entry (p, q) of the body's result on a block is the row flow of row p, for any reading (w0, b0, ws, bs) of the
    loaded weights that the loaded pieces agree with. -/
theorem blockFlow_apply (x0 : FVec Ideal S1024x1024 .f32) (x1 : FVec Ideal S1024x512 .f32) (w : FVec Ideal S1024x512 .bf16) (b : FVec Ideal S1x512 .f32)
    (W0 : FVec Ideal S1x512x512 .bf16) (c0 : FVec Ideal S1x1x512 .f32) (W1 : FVec Ideal S1x512x512 .bf16) (c1 : FVec Ideal S1x1x512 .f32)
    (W2 : FVec Ideal S1x512x512 .bf16) (c2 : FVec Ideal S1x1x512 .f32) (W3 : FVec Ideal S1x512x512 .bf16) (c3 : FVec Ideal S1x1x512 .f32)
    (W4 : FVec Ideal S1x512x512 .bf16) (c4 : FVec Ideal S1x1x512 .f32) (W5 : FVec Ideal S1x512x512 .bf16) (c5 : FVec Ideal S1x1x512 .f32)
    (w0 : Fin 512 → Fin 1024 → EReal) (b0 : Fin 512 → EReal) (ws : Fin 6 → Fin 512 → Fin 512 → EReal) (bs : Fin 6 → Fin 512 → EReal)
    (hw : (fun c k => w (ix2 k c)) = w0) (hb : (fun c => b (ix2 (0 : Fin 1) c)) = b0)
    (hW0 : slabW W0 = ws 0) (hc0 : slabB c0 = bs 0) (hW1 : slabW W1 = ws 1) (hc1 : slabB c1 = bs 1)
    (hW2 : slabW W2 = ws 2) (hc2 : slabB c2 = bs 2) (hW3 : slabW W3 = ws 3) (hc3 : slabB c3 = bs 3)
    (hW4 : slabW W4 = ws 4) (hc4 : slabB c4 = bs 4) (hW5 : slabW W5 = ws 5) (hc5 : slabB c5 = bs 5)
    (p : Fin 1024) (q : Fin 512) :
    blockFlow x0 x1 w b W0 c0 W1 c1 W2 c2 W3 c3 W4 c4 W5 c5 (ix2 p q) = flow w0 b0 ws bs (row x0 p) (row x1 p) q := by
  unfold blockFlow flow
  simp only [reflectBlock_apply, row_reflectBlock, row_layer, row_first_layer, hw, hb, hW0, hc0, hW1, hc1, hW2, hc2, hW3, hc3,
    hW4, hc4, hW5, hc5]

end Cert.KernelIdeal.Rows

end
-- ==== Proof.LibLayout3.lean ====
/-
  Keep-dimension layout operations of rank-3 arrays read at an index.

  A reduction that keeps its axis is spelled as a cast to a shape with a unit axis followed by a broadcast along that
  axis. Read at coordinates these are the identity on the remaining coordinates:
    * an [a, b] array cast to [a, 1, b] reads, at (p, u, w), the operand at (p, w); cast to [a, b, 1] it reads, at
      (p, n, u), the operand at (p, n);
    * an [a, 1, c] array broadcast to [a, b, c] reads, at (p, j, w), the operand at (p, 0, w); a [1, b, c] array reads
      the operand at (0, j, w); an [a, b, 1] array reads the operand at (p, j, 0).
-/
import Idealize.ShloMosaic.Lib.Pipeline.Value
import Idealize.ShloMosaic.Lib.ValueIdx

noncomputable section

namespace Cert.LibLayout3

open Idealize.ShloMosaic Idealize.ShloMosaic.ValueIdx

variable {α : Type}

/-- An `[a, b]` array cast to `[a, 1, b]` reads, at `(p, u, w)`, the operand at `(p, w)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (w : Fin b) :
    shapeCast ⟨3, ![a, 1, b]⟩ x h (ix3 p u w) = x (ix2 p w) :=
  shapeCast_apply x h _ _ (by
    have hu : u.val = 0 := by omega
    rw [Shape.rowMajor_val_three, Shape.rowMajor_val_two]
    show p.val * b + w.val = (p.val * 1 + u.val) * b + w.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, c]` array broadcast to `[a, b, c]` reads, at `(p, j, w)`, the operand at `(p, 0, w)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (j : Fin b) (w : Fin c) :
    broadcastTo ⟨3, ![a, b, c]⟩ v h (ix3 p j w) = v (ix3 p (0 : Fin 1) w) := by
  refine broadcastTo_apply v h (ix3 p j w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- A `[1, b, c]` array broadcast to `[a, b, c]` reads, at `(p, j, w)`, the operand at `(0, j, w)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (w : Fin c) :
    broadcastTo ⟨3, ![a, b, c]⟩ v h (ix3 p j w) = v (ix3 (0 : Fin 1) j w) := by
  refine broadcastTo_apply v h (ix3 p j w) (ix3 (0 : Fin 1) j w) fun ax => ?_
  match ax with
  | ⟨0, _⟩ => rfl
  | ⟨1, _⟩ =>
    show j.val = if b = 1 then 0 else j.val
    split
    · have := j.isLt; omega
    · rfl
  | ⟨2, _⟩ =>
    show w.val = if c = 1 then 0 else w.val
    split
    · have := w.isLt; omega
    · rfl

/-- An `[a, b, 1]` array broadcast to `[a, b, c]` reads, at `(p, j, w)`, the operand at `(p, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (w : Fin c) :
    broadcastTo ⟨3, ![a, b, c]⟩ v h (ix3 p j w) = v (ix3 p j (0 : Fin 1)) := by
  refine broadcastTo_apply v h (ix3 p j w) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLayout3

end
-- ==== Proof.KernelValue.lean ====
/-
  The kernel's result array: block t of the output is the flow of rows 1024·t … 1024·t + 1023.

  The region finds the hidden array and zs as launched, and the weights as the host left them: W₀ transposed,
  every Ws[t] transposed, b₀ as a [1, 512] row, bs as [6, 1, 512]. At grid point t the body reads block t of the
  hidden array and of zs and the whole weight arrays, and writes block t of the output. Row p of that block is the
  flow of row 1024·t + p; the sixteen blocks tile the 16384 rows; so the array ends as `flowArray` of the arguments.
-/
import proofs.«169013_j80315888436082_2_alg».proof.Proof.Gen.KernelIdeal.Value
import proofs.«169013_j80315888436082_2_alg».proof.Proof.KernelRows
import proofs.«169013_j80315888436082_2_alg».proof.Proof.LibLayout3
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.BlockValue

open Cert.KernelIdeal Cert.KernelIdeal.Gen Cert.KernelIdeal.Rows Cert.Householder
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The body on a block, from what it loads -/

/-- A slab load at step o of the stacked weights reads, as (output, input), the stacked array at (o, input, output). -/
theorem slabW_ld (x4 : Vec Ideal S6x512x512 .bf16) (o : ℕ) (t : Fin 6) (ht : t.val = o)
    (inb : ∀ a, (![o, 0, 0] : Fin 3 → Nat) a + S1x512x512.size a ≤ S6x512x512.size a) :
    slabW (View.ld x4 (Rect.unit (s := S6x512x512) ![o, 0, 0] S1x512x512.size inb)) = fun c k => x4 (ix3 t k c) := by
  funext c k
  unfold slabW
  refine congrArg x4 (funext fun a => Fin.ext ?_)
  match a with
  | ⟨0, _⟩ => show o + 1 * 0 = t.val; omega
  | ⟨1, _⟩ => show 0 + 1 * k.val = k.val; omega
  | ⟨2, _⟩ => show 0 + 1 * c.val = c.val; omega

/-- A slab load at step o of the stacked biases reads the stacked array at (o, 0, output). -/
theorem slabB_ld (x5 : Vec Ideal S6x1x512 .f32) (o : ℕ) (t : Fin 6) (ht : t.val = o)
    (inb : ∀ a, (![o, 0, 0] : Fin 3 → Nat) a + S1x1x512.size a ≤ S6x1x512.size a) :
    slabB (View.ld x5 (Rect.unit (s := S6x1x512) ![o, 0, 0] S1x1x512.size inb)) = fun c => x5 (ix3 t (0 : Fin 1) c) := by
  funext c
  unfold slabB
  refine congrArg x5 (funext fun a => Fin.ext ?_)
  match a with
  | ⟨0, _⟩ => show o + 1 * 0 = t.val; omega
  | ⟨1, _⟩ => show 0 + 1 * 0 = 0; omega
  | ⟨2, _⟩ => show 0 + 1 * c.val = c.val; omega

/-- What the body leaves in the output's buffer is the block flow of its loads: the payloads compose to seven layers
    with a reflection after each. -/
theorem out_eq_blockFlow (x0 : Vec Ideal S1024x1024 .f32) (x1 : Vec Ideal S1024x512 .f32) (x2 : Vec Ideal S1024x512 .bf16)
    (x3 : Vec Ideal S1x512 .f32) (x4 : Vec Ideal S6x512x512 .bf16) (x5 : Vec Ideal S6x1x512 .f32) :
    out0_6 (F := Ideal) x0 x1 x2 x3 x4 x5
      = blockFlow (View.ld x0 r0_0) (View.ld x1 r0_1) (View.ld x2 r0_1) (View.ld x3 r0_2)
          (View.ld x4 r0_3) (View.ld x5 r0_4) (View.ld x4 r0_5) (View.ld x5 r0_6) (View.ld x4 r0_7) (View.ld x5 r0_8)
          (View.ld x4 r0_9) (View.ld x5 r0_10) (View.ld x4 r0_11) (View.ld x5 r0_12) (View.ld x4 r0_13) (View.ld x5 r0_14) := by
  unfold out0_6
  rw [View.canon_unit_zero hz2]
  rfl

/-- Entry (p, q) of what the body leaves is the row flow of row p of the hidden and z blocks, for any reading of
    the six input blocks at their entries. -/
theorem out_apply (x0 : Vec Ideal S1024x1024 .f32) (x1 : Vec Ideal S1024x512 .f32) (x2 : Vec Ideal S1024x512 .bf16)
    (x3 : Vec Ideal S1x512 .f32) (x4 : Vec Ideal S6x512x512 .bf16) (x5 : Vec Ideal S6x1x512 .f32) (p : Fin 1024) (q : Fin 512)
    (w0 : Fin 512 → Fin 1024 → EReal) (b0 : Fin 512 → EReal) (ws : Fin 6 → Fin 512 → Fin 512 → EReal) (bs : Fin 6 → Fin 512 → EReal)
    (h : Fin 1024 → EReal) (z : Fin 512 → EReal)
    (hw0 : ∀ c k, x2 (ix2 k c) = w0 c k) (hb0 : ∀ c, x3 (ix2 (0 : Fin 1) c) = b0 c)
    (hws : ∀ t c k, x4 (ix3 t k c) = ws t c k) (hbs : ∀ t c, x5 (ix3 t (0 : Fin 1) c) = bs t c)
    (hh : ∀ k, x0 (ix2 p k) = h k) (hzz : ∀ k, x1 (ix2 p k) = z k) :
    out0_6 (F := Ideal) x0 x1 x2 x3 x4 x5 (ix2 p q) = flow w0 b0 ws bs h z q := by
  rw [out_eq_blockFlow]
  have e0 : row (View.ld x0 r0_0) p = h := by
    rw [View.ld_unit_zero (S := S1024x1024) hz2]; exact funext hh
  have e1 : row (View.ld x1 r0_1) p = z := by
    rw [View.ld_unit_zero (S := S1024x512) hz2]; exact funext hzz
  rw [blockFlow_apply _ _ _ _ _ _ _ _ _ _ _ _ _ _ _ _ w0 b0 ws bs
    (by rw [View.ld_unit_zero (S := S1024x512) hz2]; exact funext fun c => funext fun k => hw0 c k)
    (by rw [View.ld_unit_zero (S := S1x512) hz2]; exact funext hb0)
    ((slabW_ld x4 0 0 rfl _).trans (funext fun c => funext fun k => hws 0 c k))
    ((slabB_ld x5 0 0 rfl _).trans (funext fun c => hbs 0 c))
    ((slabW_ld x4 1 1 rfl _).trans (funext fun c => funext fun k => hws 1 c k))
    ((slabB_ld x5 1 1 rfl _).trans (funext fun c => hbs 1 c))
    ((slabW_ld x4 2 2 rfl _).trans (funext fun c => funext fun k => hws 2 c k))
    ((slabB_ld x5 2 2 rfl _).trans (funext fun c => hbs 2 c))
    ((slabW_ld x4 3 3 rfl _).trans (funext fun c => funext fun k => hws 3 c k))
    ((slabB_ld x5 3 3 rfl _).trans (funext fun c => hbs 3 c))
    ((slabW_ld x4 4 4 rfl _).trans (funext fun c => funext fun k => hws 4 c k))
    ((slabB_ld x5 4 4 rfl _).trans (funext fun c => hbs 4 c))
    ((slabW_ld x4 5 5 rfl _).trans (funext fun c => funext fun k => hws 5 c k))
    ((slabB_ld x5 5 5 rfl _).trans (funext fun c => hbs 5 c)) p q, e0, e1]

/-! ## The arrays as the region finds them -/

variable (m : (ℓ : Loc nD τ sig) → Buf (Elt Ideal) ℓ) (ρ : Dev nD → PrngReg)

/-- The first layer's weights reach the region transposed: entry (k, q) is W₀ (q, k). -/
theorem V_w0_apply (c : Dev nD) (k : Fin 1024) (q : Fin 512) :
    V m c main_v1 (ix2 k q) = m ((c : Thread nD τ).loc main_arg2) (ix2 q k) := by
  have e : (V m c main_v1 : S1024x512.Idx → EReal)
      = truncf (F := Ideal) .bf16 (transpose S1024x512 [1, 0] (m ((c : Thread nD τ).loc main_arg2)) transposes_S512x1024_S1024x512_1_0)
          bitsLt_bf16_f32 := by
    dsimp only [Gen.V, Gen.hostOps0]; after_results <;> rfl
  rw [e, truncf_apply, transpose_ix2_apply]

/-- The stacked weights reach the region with each matrix transposed: entry (s, k, q) is Ws (s, q, k). -/
theorem V_ws_apply (c : Dev nD) (s : Fin 6) (k : Fin 512) (q : Fin 512) :
    V m c main_v3 (ix3 s k q) = m ((c : Thread nD τ).loc main_arg4) (ix3 s q k) := by
  have e : (V m c main_v3 : S6x512x512.Idx → EReal)
      = truncf (F := Ideal) .bf16 (transpose S6x512x512 [0, 2, 1] (m ((c : Thread nD τ).loc main_arg4)) transposes_S6x512x512_S6x512x512_0_2_1)
          bitsLt_bf16_f32 := by
    dsimp only [Gen.V, Gen.hostOps0]; after_results <;> rfl
  rw [e, truncf_apply, transpose_ix3_021_apply]

/-- The first bias reaches the region as a [1, 512] row. -/
theorem V_b0_apply (c : Dev nD) (u : Fin 1) (q : Fin 512) :
    V m c main_v4 (ix2 u q) = m ((c : Thread nD τ).loc main_arg3) (ix1 q) := by
  have e : (V m c main_v4 : S1x512.Idx → EReal)
      = shapeCast S1x512 (m ((c : Thread nD τ).loc main_arg3)) shapeCasts_S512_S1x512 := by
    dsimp only [Gen.V, Gen.hostOps0]; after_results <;> rfl
  rw [e, shapeCast_a_1a_apply]

/-- The stacked biases reach the region as [6, 1, 512]. -/
theorem V_bs_apply (c : Dev nD) (s : Fin 6) (u : Fin 1) (q : Fin 512) :
    V m c main_v5 (ix3 s u q) = m ((c : Thread nD τ).loc main_arg5) (ix2 s q) := by
  have e : (V m c main_v5 : S6x1x512.Idx → EReal)
      = shapeCast S6x1x512 (m ((c : Thread nD τ).loc main_arg5)) shapeCasts_S6x512_S6x1x512 := by
    dsimp only [Gen.V, Gen.hostOps0]; after_results <;> rfl
  rw [e, Cert.LibLayout3.shapeCast_ab_a1b_apply]

/-! ## Where each window's block sits at point t -/

/-- The printed index maps over the sixteen points: the hidden, zs and output blocks move together down the rows
    and stay at column block 0; the four weight windows stay at block 0 on every axis. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (1 : Fin 2) = 0 ∧ win0_6.index t (0 : Fin 2) ≤ 15 :=
  (by decide +kernel : ∀ t : Fin grid0.N, _)

/-- Every row block is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-- The array row that row p of point t's blocks is: 1024 · (the point's row block) + p. -/
def rowOf (t : Fin cfg0.N) (p : Fin 1024) : Fin 16384 :=
  ⟨win0_6.index t (0 : Fin 2) * 1024 + p.val, by
    have h := (idx_facts t).2.2.2.2.2.2.2.2.2.2.2.2.2.2.2
    have := p.isLt
    omega⟩

theorem emb0 (t : Fin cfg0.N) (p : Fin 1024) (k : Fin 1024) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 1024 + 1 * p.val = win0_6.index t (0 : Fin 2) * 1024 + p.val; omega
  | ⟨1, _⟩ => show win0_0.index t (1 : Fin 2) * 1024 + 1 * k.val = k.val; omega

theorem emb1 (t : Fin cfg0.N) (p : Fin 1024) (k : Fin 512) :
    ((cfg0.win 1).blk t).view.emb (ix2 p k) = ix2 (rowOf t p) k := by
  obtain ⟨-, -, e0, e1, -⟩ := idx_facts t
  funext a; apply Fin.ext
  match a with
  | ⟨0, _⟩ => show win0_1.index t (0 : Fin 2) * 1024 + 1 * p.val = win0_6.index t (0 : Fin 2) * 1024 + p.val; omega
  | ⟨1, _⟩ => show win0_1.index t (1 : Fin 2) * 512 + 1 * k.val = k.val; omega

theorem emb2 (t : Fin cfg0.N) (k : Fin 1024) (q : Fin 512) :
    ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 1024 + 1 * k.val = k.val; omega
  | ⟨1, _⟩ => show win0_2.index t (1 : Fin 2) * 512 + 1 * q.val = q.val; omega

theorem emb3 (t : Fin cfg0.N) (u : Fin 1) (q : Fin 512) :
    ((cfg0.win 3).blk t).view.emb (ix2 u q) = ix2 u q := by
  obtain ⟨-, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 512 + 1 * q.val = q.val; omega

theorem emb4 (t : Fin cfg0.N) (s : Fin 6) (k : Fin 512) (q : Fin 512) :
    ((cfg0.win 4).blk t).view.emb (ix3 s k q) = ix3 s k q := by
  obtain ⟨-, -, -, -, -, -, -, -, e0, e1, e2, -⟩ := idx_facts t
  funext a; apply Fin.ext
  match a with
  | ⟨0, _⟩ => show win0_4.index t (0 : Fin 3) * 6 + 1 * s.val = s.val; omega
  | ⟨1, _⟩ => show win0_4.index t (1 : Fin 3) * 512 + 1 * k.val = k.val; omega
  | ⟨2, _⟩ => show win0_4.index t (2 : Fin 3) * 512 + 1 * q.val = q.val; omega

theorem emb5 (t : Fin cfg0.N) (s : Fin 6) (u : Fin 1) (q : Fin 512) :
    ((cfg0.win 5).blk t).view.emb (ix3 s u q) = ix3 s u q := by
  obtain ⟨-, -, -, -, -, -, -, -, -, -, -, e0, e1, e2, -⟩ := idx_facts t
  funext a; apply Fin.ext
  match a with
  | ⟨0, _⟩ => show win0_5.index t (0 : Fin 3) * 6 + 1 * s.val = s.val; omega
  | ⟨1, _⟩ => show win0_5.index t (1 : Fin 3) * 1 + 1 * u.val = u.val; omega
  | ⟨2, _⟩ => show win0_5.index t (2 : Fin 3) * 512 + 1 * q.val = q.val; omega

theorem emb6 (t : Fin cfg0.N) (p : Fin 1024) (q : Fin 512) :
    ((cfg0.win 6).blk t).view.emb (ix2 p q) = ix2 (rowOf t p) q := by
  have e1 := (idx_facts t).2.2.2.2.2.2.2.2.2.2.2.2.2.2.1
  funext a; apply Fin.ext
  match a with
  | ⟨0, _⟩ => show win0_6.index t (0 : Fin 2) * 1024 + 1 * p.val = win0_6.index t (0 : Fin 2) * 1024 + p.val; omega
  | ⟨1, _⟩ => show win0_6.index t (1 : Fin 2) * 512 + 1 * q.val = q.val; omega

/-! ## What point t writes back -/

/-- Point t writes back block t of the flow array of the arguments. -/
theorem flushed_eq (c : Dev nD) (t : Fin cfg0.N) :
    (dats m 0 c).flushed 6 t = ((cfg0.win 6).blk t).view.read (Elt Ideal)
      (flowArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  funext j
  obtain ⟨p, q, rfl⟩ : ∃ (p : Fin 1024) (q : Fin 512), j = ix2 p q := ⟨j 0, j 1, eq_ix2 j⟩
  show out0_6 (iblk m c 0 t) (iblk m c 1 t) (iblk m c 2 t) (iblk m c 3 t) (iblk m c 4 t) (iblk m c 5 t) (ix2 p q)
    = flowArray _ _ _ _ _ _ (((cfg0.win 6).blk t).view.emb (ix2 p q))
  rw [emb6 t p q, flowArray_apply]
  refine out_apply _ _ _ _ _ _ p q _ _ _ _ _ _ ?_ ?_ ?_ ?_ ?_ ?_
  · intro cc k
    show V m c main_v1 (((cfg0.win 2).blk t).view.emb (ix2 k cc)) = _
    rw [emb2, V_w0_apply]
  · intro cc
    show V m c main_v4 (((cfg0.win 3).blk t).view.emb (ix2 (0 : Fin 1) cc)) = _
    rw [emb3, V_b0_apply]
  · intro s cc k
    show V m c main_v3 (((cfg0.win 4).blk t).view.emb (ix3 s k cc)) = _
    rw [emb4, V_ws_apply]
  · intro s cc
    show V m c main_v5 (((cfg0.win 5).blk t).view.emb (ix3 s (0 : Fin 1) cc)) = _
    rw [emb5, V_bs_apply]
  · intro k
    show V m c main_arg0 (((cfg0.win 0).blk t).view.emb (ix2 p k)) = _
    rw [emb0, V_main_arg0]
  · intro k
    show V m c main_arg1 (((cfg0.win 1).blk t).view.emb (ix2 p k)) = _
    rw [emb1, V_main_arg1]

/-! ## The sixteen blocks tile the array -/

/-- An index of the output array is in point t's block iff each coordinate is in the block's range on its axis. -/
theorem mem_blk6 (t : Fin cfg0.N) (i : S16384x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v6).slice (win0_6.rect t)).set ↔ _
  rw [View.set_slice_whole, Rect.mem_set_unit]
  exact Iff.rfl

/-- Every index of the output array is in the block of the point of its row block. -/
theorem cover (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- The output array after the run is the flow array of the arguments. -/
theorem final (c : Dev nD) : (dats m 0 c).arrAt 6 cfg0.N
    = flowArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

/-- The kernel's run: it terminates with the output at the flow array of the arguments, the arguments unchanged. -/
theorem run : θ_run defs (onTc (τ := τ) (main (F := Ideal))) ⟨m, fun _ => 0, ρ⟩ fun r => ∀ c : Dev nD,
      r.2.mem ((c : Thread nD τ).loc main_v6)
        = flowArray (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.BlockValue

end
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«169013_j80315888436082_2_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.RefRows.lean ====
/-
  The reference's values on the whole batch of 16384 rows, read at an entry.

  The reference applies the same row-local operations to the whole arrays: a layer is a host matrix product with
  the transposed weights plus the bias repeated down the rows; a reflection is z − (2·v)·(⟨v,z⟩/⟨v,v⟩) with the
  two row sums taken by the host and the quotient repeated along each row. Read at (r, q) each is the row function
  of HouseholderFlow.lean on row r; the reference's arrangement of the reflection meets the specification's by
  the one law proved there.
-/
import proofs.«169013_j80315888436082_2_alg».proof.Proof.Gen.ReferenceIdeal
import proofs.«169013_j80315888436082_2_alg».proof.Proof.HouseholderFlow
import proofs.«169013_j80315888436082_2_alg».proof.Proof.LibHostRows
import Idealize.ShloMosaic.Lib.ValueLayout
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Idealize.ShloMosaic Idealize.ShloMosaic.ValueIdx Cert.Householder Cert.LibHostRows

/-- Row r of an array with 16384 rows. -/
def row {K : ℕ} (v : (⟨2, ![16384, K]⟩ : Shape).Idx → EReal) (r : Fin 16384) : Fin K → EReal := fun k => v (ix2 r k)

/-- The first layer: hidden · W₀ᵀ + b₀. -/
def layer0 (hidden : FVec Ideal S16384x1024 .f32) (W0 : FVec Ideal S512x1024 .f32) (b0 : FVec Ideal S512 .f32) : FVec Ideal S16384x512 .f32 :=
  addf (Host.dotGeneral (F := Ideal) dot_S16384x1024_S1024x512_S16384x512_1_0_0_1_n_n none hidden
      (transpose S1024x512 [1, 0] W0 transposes_S512x1024_S1024x512_1_0))
    (broadcastInDim S16384x512 ![0, 1] bcast_S1x512_S16384x512_0_1 (broadcastInDim S1x512 ![1] bcast_S512_S1x512_1 b0))

/-- Entry (r, q) of the first layer is the layer of row r of the hidden array. -/
theorem layer0_apply (hidden : FVec Ideal S16384x1024 .f32) (W0 : FVec Ideal S512x1024 .f32) (b0 : FVec Ideal S512 .f32)
    (r : Fin 16384) (q : Fin 512) :
    layer0 hidden W0 b0 (ix2 r q) = lin (fun c k => W0 (ix2 c k)) (fun c => b0 (ix1 c)) (row hidden r) q := by
  unfold layer0 lin row
  refine congrArg₂ (· + ·) ?_ ?_
  · refine (dotGeneral_plain_apply 16384 1024 512 none _ _ r q).trans ?_
    refine Finset.sum_congr rfl fun c _ => ?_
    rw [transpose_ix2_apply]
  · refine (broadcastInDim_1b_ab_apply _ _ r q).trans ?_
    exact broadcastInDim_b_1b_apply _ _ 0 q

/-- A later layer with the weights and bias of step o cut out of the stacked arrays: v · Ws[o]ᵀ + bs[o]. -/
def layer (o : ℕ) (v : FVec Ideal S16384x512 .f32) (Ws : FVec Ideal S6x512x512 .f32) (bs : FVec Ideal S6x512 .f32)
    (hW : S6x512x512.Slices ![o, 0, 0] S1x512x512) (hb : S6x512.Slices ![o, 0] S1x512) : FVec Ideal S16384x512 .f32 :=
  addf (Host.dotGeneral (F := Ideal) dot_S16384x512_S512x512_S16384x512_1_0_0_1_n_n none v
      (transpose S512x512 [1, 0] (shapeCast S512x512 (extractStridedSlice S1x512x512 ![o, 0, 0] Ws hW) shapeCasts_S1x512x512_S512x512)
        transposes_S512x512_S512x512_1_0))
    (broadcastInDim S16384x512 ![0, 1] bcast_S1x512_S16384x512_0_1
      (broadcastInDim S1x512 ![1] bcast_S512_S1x512_1 (shapeCast S512 (extractStridedSlice S1x512 ![o, 0] bs hb) shapeCasts_S1x512_S512)))

/-- Entry (r, q) of a later layer is the layer of row r of the incoming v, with the weights of step t. -/
theorem layer_apply (o : ℕ) (t : Fin 6) (ht : t.val = o) (v : FVec Ideal S16384x512 .f32) (Ws : FVec Ideal S6x512x512 .f32)
    (bs : FVec Ideal S6x512 .f32) (hW : S6x512x512.Slices ![o, 0, 0] S1x512x512) (hb : S6x512.Slices ![o, 0] S1x512)
    (r : Fin 16384) (q : Fin 512) :
    layer o v Ws bs hW hb (ix2 r q) = lin (fun c k => Ws (ix3 t c k)) (fun c => bs (ix2 t c)) (row v r) q := by
  unfold layer lin row
  refine congrArg₂ (· + ·) ?_ ?_
  · refine (dotGeneral_plain_apply 16384 512 512 none _ _ r q).trans ?_
    refine Finset.sum_congr rfl fun c _ => ?_
    rw [transpose_ix2_apply, shapeCast_1ab_ab_apply, slice3_axis0_apply o Ws hW 0 q c t (by rw [ht]; rfl)]
  · refine (broadcastInDim_1b_ab_apply _ _ r q).trans ?_
    refine (broadcastInDim_b_1b_apply _ _ 0 q).trans ?_
    rw [shapeCast_1a_a_apply, slice2_axis0_apply o bs hb 0 q t (by rw [ht]; rfl)]

/-- The reference's reflection of z by v: z − (2·v)·(⟨v,z⟩/⟨v,v⟩), the row sums from zero, kept as columns. -/
def reflectRef (v z : FVec Ideal S16384x512 .f32) : FVec Ideal S16384x512 .f32 :=
  subf z (mulf (mulf (broadcastInDim S16384x512 ![] bcast_S_S16384x512 (constant (F := Ideal) S_ .f32 0x40000000#32)) v)
    (broadcastInDim S16384x512 ![0, 1] bcast_S16384x1_S16384x512_0_1
      (Host.divf (F := Ideal)
        (broadcastInDim S16384x1 ![0] bcast_S16384_S16384x1_0
          (Host.reduceAdd (F := Ideal) (mulf v z) (constant (F := Ideal) S_ .f32 0x00000000#32) reducesTo_S16384x512_S16384_d1 h_S_))
        (broadcastInDim S16384x1 ![0] bcast_S16384_S16384x1_0
          (Host.reduceAdd (F := Ideal) (mulf v v) (constant (F := Ideal) S_ .f32 0x00000000#32) reducesTo_S16384x512_S16384_d1 h_S_)))))

/-- A host row sum from the zero word, kept as a column, is the row's sum. -/
theorem sum_col_apply (a : FVec Ideal S16384x512 .f32) (r : Fin 16384) :
    broadcastInDim S16384x1 ![0] bcast_S16384_S16384x1_0
        (Host.reduceAdd (F := Ideal) a (constant (F := Ideal) S_ .f32 0x00000000#32) reducesTo_S16384x512_S16384_d1 h_S_) (ix2 r (0 : Fin 1))
      = ∑ k : Fin 512, a (ix2 r k) := by
  refine (broadcastInDim_a_a1_apply _ _ r 0).trans ?_
  refine (hostReduceAdd_rows_apply a _ reducesTo_S16384x512_S16384_d1 h_S_ r).trans ?_
  show Ideal.ofBits .f32 0x00000000#32 + _ = _
  rw [Ideal.ofBits_zero_f32, zero_add]

/-- Entry (r, q) of the reference's reflection is the reflection of row r of z by row r of v. -/
theorem reflectRef_apply (v z : FVec Ideal S16384x512 .f32) (r : Fin 16384) (q : Fin 512) :
    reflectRef v z (ix2 r q) = householder (row v r) (row z r) q := by
  have h1 := sum_col_apply (mulf v z) r
  have h2 := sum_col_apply (mulf v v) r
  refine Eq.trans ?_ (householder_eq (row v r) (row z r) q)
  unfold reflectRef row
  rw [subf_apply, mulf_apply, mulf_apply, broadcastInDim_a1_ab_apply, broadcastInDim_scalar_apply, constant_apply]
  simp only [Host.divf, h1, h2, Ideal.hostDivf_def]
  rfl

/-- Row r of the first layer. -/
theorem row_layer0 (hidden : FVec Ideal S16384x1024 .f32) (W0 : FVec Ideal S512x1024 .f32) (b0 : FVec Ideal S512 .f32) (r : Fin 16384) :
    row (layer0 hidden W0 b0) r = lin (fun c k => W0 (ix2 c k)) (fun c => b0 (ix1 c)) (row hidden r) :=
  funext fun q => layer0_apply hidden W0 b0 r q

/-- Row r of a later layer. -/
theorem row_layer (o : ℕ) (t : Fin 6) (ht : t.val = o) (v : FVec Ideal S16384x512 .f32) (Ws : FVec Ideal S6x512x512 .f32)
    (bs : FVec Ideal S6x512 .f32) (hW : S6x512x512.Slices ![o, 0, 0] S1x512x512) (hb : S6x512.Slices ![o, 0] S1x512) (r : Fin 16384) :
    row (layer o v Ws bs hW hb) r = lin (fun c k => Ws (ix3 t c k)) (fun c => bs (ix2 t c)) (row v r) :=
  funext fun q => layer_apply o t ht v Ws bs hW hb r q

/-- Row r of the reference's reflection. -/
theorem row_reflectRef (v z : FVec Ideal S16384x512 .f32) (r : Fin 16384) :
    row (reflectRef v z) r = householder (row v r) (row z r) :=
  funext fun q => reflectRef_apply v z r q

/-- The reference's result from its six argument arrays. -/
def refFlow (hidden : FVec Ideal S16384x1024 .f32) (zs : FVec Ideal S16384x512 .f32) (W0 : FVec Ideal S512x1024 .f32)
    (b0 : FVec Ideal S512 .f32) (Ws : FVec Ideal S6x512x512 .f32) (bs : FVec Ideal S6x512 .f32) : FVec Ideal S16384x512 .f32 :=
  let v0 := layer0 hidden W0 b0
  let z1 := reflectRef v0 zs
  let v1 := layer 0 v0 Ws bs slices_S6x512x512_S1x512x512_0_0_0 slices_S6x512_S1x512_0_0
  let z2 := reflectRef v1 z1
  let v2 := layer 1 v1 Ws bs slices_S6x512x512_S1x512x512_1_0_0 slices_S6x512_S1x512_1_0
  let z3 := reflectRef v2 z2
  let v3 := layer 2 v2 Ws bs slices_S6x512x512_S1x512x512_2_0_0 slices_S6x512_S1x512_2_0
  let z4 := reflectRef v3 z3
  let v4 := layer 3 v3 Ws bs slices_S6x512x512_S1x512x512_3_0_0 slices_S6x512_S1x512_3_0
  let z5 := reflectRef v4 z4
  let v5 := layer 4 v4 Ws bs slices_S6x512x512_S1x512x512_4_0_0 slices_S6x512_S1x512_4_0
  let z6 := reflectRef v5 z5
  let v6 := layer 5 v5 Ws bs slices_S6x512x512_S1x512x512_5_0_0 slices_S6x512_S1x512_5_0
  reflectRef v6 z6

/-- Entry (r, q) of the reference's result is the row flow of row r. -/
theorem refFlow_apply (hidden : FVec Ideal S16384x1024 .f32) (zs : FVec Ideal S16384x512 .f32) (W0 : FVec Ideal S512x1024 .f32)
    (b0 : FVec Ideal S512 .f32) (Ws : FVec Ideal S6x512x512 .f32) (bs : FVec Ideal S6x512 .f32) (r : Fin 16384) (q : Fin 512) :
    refFlow hidden zs W0 b0 Ws bs (ix2 r q)
      = flow (fun c k => W0 (ix2 c k)) (fun c => b0 (ix1 c)) (fun t c k => Ws (ix3 t c k)) (fun t c => bs (ix2 t c))
          (row hidden r) (row zs r) q := by
  unfold refFlow flow
  simp only [reflectRef_apply, row_reflectRef, row_layer0, row_layer 0 0 rfl, row_layer 1 1 rfl, row_layer 2 2 rfl,
    row_layer 3 3 rfl, row_layer 4 4 rfl, row_layer 5 5 rfl]

/-- The reference's result is the flow array of its arguments. -/
theorem refFlow_eq_flowArray (hidden : FVec Ideal S16384x1024 .f32) (zs : FVec Ideal S16384x512 .f32) (W0 : FVec Ideal S512x1024 .f32)
    (b0 : FVec Ideal S512 .f32) (Ws : FVec Ideal S6x512x512 .f32) (bs : FVec Ideal S6x512 .f32) :
    refFlow hidden zs W0 b0 Ws bs = flowArray hidden zs W0 b0 Ws bs := by
  funext i
  obtain ⟨r, q, rfl⟩ : ∃ (r : Fin 16384) (q : Fin 512), i = ix2 r q := ⟨i 0, i 1, eq_ix2 i⟩
  rw [refFlow_apply, flowArray_apply]
  rfl

end Cert.ReferenceIdeal.Rows

end
-- ==== Proof.RefValue.lean ====
/-
  The reference's run, re-posted: its result array is the flow array of its arguments.

  The generated run states the result as the composed term of the host operations over named intermediate buffers;
  that term is, by unfolding the names, seven layers with the reference's reflection after each (RefRows.lean), which
  is the flow array entry by entry.
-/
import proofs.«169013_j80315888436082_2_alg».proof.Proof.Gen.ReferenceIdeal.Run
import proofs.«169013_j80315888436082_2_alg».proof.Proof.RefRows

noncomputable section

namespace Cert.ReferenceIdeal.RefValue

open Cert.ReferenceIdeal Cert.ReferenceIdeal.Gen Cert.ReferenceIdeal.Rows Cert.Householder
open Idealize.ShloMosaic Idealize.ShloMosaic.TcCoe Idealize.SL.Sem

variable (m : (ℓ : Loc nD τ sig) → Buf (Elt Ideal) ℓ) (ρ : Dev nD → PrngReg)

/-- Every weakly fair execution of the reference terminates with its result at the flow array of the arguments,
    the arguments unchanged. -/
theorem run : θ_run defs (onTc (τ := τ) (main (F := Ideal))) ⟨m, fun _ => 0, ρ⟩ fun r => ∀ c : Dev nD,
      r.2.mem ((c.tc : Thread nD τ).loc main_v142)
        = flowArray (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans
      (refFlow_eq_flowArray (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))), (h c).2⟩)
    (Cert.ReferenceIdeal.Value.run (F := Ideal) m ρ)

end Cert.ReferenceIdeal.RefValue

end
-- ==== Proof.lean ====
/-
  A Householder flow: seven linear layers carry v from the hidden row, and after each layer z is reflected in the
  hyperplane orthogonal to the new v, z ↦ z − 2·v·⟨v,z⟩/⟨v,v⟩. The kernel computes it on blocks of 1024 rows with
  bf16 matrix products and the coefficient taken as (2·⟨v,z⟩)/⟨v,v⟩; the reference on all 16384 rows at once with
  the coefficient as (2·v)·(⟨v,z⟩/⟨v,v⟩).

  Over the extended reals the two programs compute one array (HouseholderFlow.lean `flowArray`): a change of float
  format is the identity, a matrix product into a zero accumulator and a host product are the same sum, a lane sum
  and a host sum from zero are the same sum, the host's transposes of the weights are undone by the index the
  products read them at, and the two arrangements of the coefficient agree for ALL extended reals (at a zero norm
  both are v times an infinity of one sign, which doubling fixes), so the precondition is never opened.
  The kernel's side is KernelRows.lean (each value of the body at an entry) and KernelValue.lean (blocks to the
  array); the reference's is RefRows.lean and RefValue.lean. The three frames are the generated frame runs and the
  reference's generated run; the idealization rewrote nothing, so `preserves` is trivial.
-/
import proofs.«169013_j80315888436082_2_alg».proof.Defs
import proofs.«169013_j80315888436082_2_alg».proof.Proof.Gen.Kernel
import proofs.«169013_j80315888436082_2_alg».proof.Proof.Gen.Kernel.Frame
import proofs.«169013_j80315888436082_2_alg».proof.Proof.Gen.KernelIdeal
import proofs.«169013_j80315888436082_2_alg».proof.Proof.Gen.KernelIdeal.Frame
import proofs.«169013_j80315888436082_2_alg».proof.Proof.Gen.ReferenceIdeal
import proofs.«169013_j80315888436082_2_alg».proof.Proof.Gen.Pre_finite_inputs
import proofs.«169013_j80315888436082_2_alg».proof.Proof.Gen.KernelIdeal.Value
import proofs.«169013_j80315888436082_2_alg».proof.Proof.Gen.ReferenceIdeal.Run
import proofs.«169013_j80315888436082_2_alg».proof.Proof.KernelValue
import proofs.«169013_j80315888436082_2_alg».proof.Proof.RefValue
import Idealize.ShloMosaic.Adequacy
import Idealize.ShloMosaic.Init

noncomputable section

namespace Cert.Proof

open Idealize.ShloMosaic Idealize.ShloMosaic.TcCoe Idealize.SL.Sem Cert.Householder

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the flow array of those arguments. -/
theorem algebraic : Cert.algebraic_KernelIdeal_ReferenceIdeal := by
  intro m ρ m' ρ' _ hagree
  refine ⟨fun c => flowArray (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5)),
    Cert.KernelIdeal.BlockValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
